-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S8x64x512 : Shape := ⟨3, ![8, 64, 512]⟩
abbrev S1024x1024 : Shape := ⟨2, ![1024, 1024]⟩
abbrev S1024 : Shape := ⟨1, ![1024]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x128x512 .f32) (main_arg1 : FVec F S8x64x512 .f32) (main_arg2 : FVec F S1024x1024 .f32) (main_arg3 : FVec F S1024 .f32) (main_arg4 : FVec F S1024x1024 .f32) (main_arg5 : FVec F S1024 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x128x512 : Shape := ⟨3, ![8, 128, 512]⟩
abbrev S8x64x512 : Shape := ⟨3, ![8, 64, 512]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S8x128x64x1024 : Shape := ⟨4, ![8, 128, 64, 1024]⟩
abbrev S1x16x512 : Shape := ⟨3, ![1, 16, 512]⟩
abbrev S1x64x512 : Shape := ⟨3, ![1, 64, 512]⟩
abbrev S1x16x64x1024 : Shape := ⟨4, ![1, 16, 64, 1024]⟩
abbrev S16x512 : Shape := ⟨2, ![16, 512]⟩
abbrev S64x512 : Shape := ⟨2, ![64, 512]⟩
abbrev S16x1024 : Shape := ⟨2, ![16, 1024]⟩
abbrev S64x1024 : Shape := ⟨2, ![64, 1024]⟩
abbrev S16x1x1024 : Shape := ⟨3, ![16, 1, 1024]⟩
abbrev S1x64x1024 : Shape := ⟨3, ![1, 64, 1024]⟩
abbrev S16x64x1024 : Shape := ⟨3, ![16, 64, 1024]⟩
abbrev S1x1x1024 : Shape := ⟨3, ![1, 1, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8x128x512, .f32⟩
  | .hbm, ⟨1, _⟩ => ⟨S8x64x512, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S512x1024, .f32⟩
  | .hbm, ⟨7, _⟩ => ⟨S512x1024, .f32⟩
  | .hbm, ⟨8, _⟩ => ⟨S1x1024, .f32⟩
  | .hbm, ⟨9, _⟩ => ⟨S1x1024, .f32⟩
  | .hbm, ⟨10, _⟩ => ⟨S8x128x64x1024, .f32⟩
  | .local _ .vmem, ⟨0, _⟩ => ⟨S1x16x512, .f32⟩
  | .local _ .vmem, ⟨1, _⟩ => ⟨S1x16x512, .f32⟩
  | .local _ .vmem, ⟨2, _⟩ => ⟨S1x64x512, .f32⟩
  | .local _ .vmem, ⟨3, _⟩ => ⟨S1x64x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1x16x64x1024, .f32⟩
  | .local _ .vmem, ⟨10, _⟩ => ⟨S1x16x64x1024, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S1024x1024_S512x1024_0_0 : S1024x1024.Slices ![0, 0] S512x1024
  slices_S1024x1024_S512x1024_512_0 : S1024x1024.Slices ![512, 0] S512x1024
  shapeCasts_S1024_S1x1024 : S1024.ShapeCasts S1x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S16x1024_S16x1x1024 : S16x1024.ShapeCasts S16x1x1024
  shapeCasts_S64x1024_S1x64x1024 : S64x1024.ShapeCasts S1x64x1024
  broadcasts_S16x1x1024_S16x64x1024 : S16x1x1024.Broadcasts S16x64x1024
  broadcasts_S1x64x1024_S16x64x1024 : S1x64x1024.Broadcasts S16x64x1024
  shapeCasts_S1x1024_S1x1x1024 : S1x1024.ShapeCasts S1x1x1024
  broadcasts_S1x1x1024_S16x64x1024 : S1x1x1024.Broadcasts S16x64x1024
  shapeCasts_S16x64x1024_S1024x1024 : S16x64x1024.ShapeCasts S1024x1024
  shapeCasts_S1024x1024_S16x64x1024 : S1024x1024.ShapeCasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S16x512_S512x1024_S16x1024_1_0_0_1_n_n_wf : DotDims.WF S16x512 S512x1024 S16x1024 [1] [0] [0] [1] [] []
  dot_S64x512_S512x1024_S64x1024_1_0_0_1_n_n_wf : DotDims.WF S64x512 S512x1024 S64x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S8x128x512.size a
  hwx0_0 : ∀ i : grid0.Coords, EltTy.bits .f32 = 32 ∨ (Rect.block (s := S8x128x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x64x1024.size a ≤ S8x128x64x1024.size a
  hwx0_7 : ∀ i : grid0.Coords, EltTy.bits .f32 = 32 ∨ (Rect.block (s := S8x128x64x1024) S1x16x64x1024.size (cc0_transform_7 i) (hinb0_7 i)).WholeWords (EltTy.packing .f32)

variable [Facts₀]

def dot_S16x512_S512x1024_S16x1024_1_0_0_1_n_n : DotDims S16x512 S512x1024 S16x1024 where
  lhsContracting := [1]
  rhsContracting := [0]
  lhsNonContracting := [0]
  rhsNonContracting := [1]
  lhsBatch := []
  rhsBatch := []
  wf := dot_S16x512_S512x1024_S16x1024_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x16x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x128x512 : Shape := ⟨3, ![8, 128, 512]⟩
abbrev S8x64x512 : Shape := ⟨3, ![8, 64, 512]⟩
abbrev S1024x1024 : Shape := ⟨2, ![1024, 1024]⟩
abbrev S1024 : Shape := ⟨1, ![1024]⟩
abbrev S512x1024 : Shape := ⟨2, ![512, 1024]⟩
abbrev S8x128x1024 : Shape := ⟨3, ![8, 128, 1024]⟩
abbrev S8x64x1024 : Shape := ⟨3, ![8, 64, 1024]⟩
abbrev S8x128x1x1024 : Shape := ⟨4, ![8, 128, 1, 1024]⟩
abbrev S8x1x64x1024 : Shape := ⟨4, ![8, 1, 64, 1024]⟩
abbrev S8x128x64x1024 : Shape := ⟨4, ![8, 128, 64, 1024]⟩
abbrev S1x1x1x1024 : Shape := ⟨4, ![1, 1, 1, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8x64x512, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S512x1024, .f32⟩
  | .hbm, ⟨7, _⟩ => ⟨S512x1024, .f32⟩
  | .hbm, ⟨8, _⟩ => ⟨S8x128x1024, .f32⟩
  | .hbm, ⟨9, _⟩ => ⟨S8x64x1024, .f32⟩
  | .hbm, ⟨10, _⟩ => ⟨S8x128x1x1024, .f32⟩
  | .hbm, ⟨11, _⟩ => ⟨S8x1x64x1024, .f32⟩
  | .hbm, ⟨12, _⟩ => ⟨S8x128x64x1024, .f32⟩
  | .hbm, ⟨13, _⟩ => ⟨S8x128x64x1024, .f32⟩
  | .hbm, ⟨14, _⟩ => ⟨S8x128x64x1024, .f32⟩
  | .hbm, ⟨15, _⟩ => ⟨S1x1x1x1024, .f32⟩
  | .hbm, ⟨16, _⟩ => ⟨S8x128x64x1024, .f32⟩
  | .hbm, ⟨17, _⟩ => ⟨S8x128x64x1024, .f32⟩
  | .hbm, ⟨18, _⟩ => ⟨S_, .f32⟩
  | .hbm, ⟨19, _⟩ => ⟨S8x128x64x1024, .f32⟩
  | .hbm, ⟨20, _⟩ => ⟨S8x128x64x1024, .f32⟩
  | .hbm, ⟨21, _⟩ => ⟨S8x128x64x1024, .f32⟩
  | .hbm, ⟨22, _⟩ => ⟨S1x1x1x1024, .f32⟩
  | .hbm, ⟨23, _⟩ => ⟨S8x128x64x1024, .f32⟩
  | .hbm, ⟨24, _⟩ => ⟨S8x128x64x1024, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  slices_S1024x1024_S512x1024_0_0 : S1024x1024.Slices ![0, 0] S512x1024
  slices_S1024x1024_S512x1024_512_0 : S1024x1024.Slices ![512, 0] S512x1024
  bcast_S8x128x1024_S8x128x1x1024_0_1_3 : S8x128x1024.BroadcastsInDim S8x128x1x1024 (![0, 1, 3] : Fin 3 → Fin S8x128x1x1024.rank)
  bcast_S8x64x1024_S8x1x64x1024_0_2_3 : S8x64x1024.BroadcastsInDim S8x1x64x1024 (![0, 2, 3] : Fin 3 → Fin S8x1x64x1024.rank)
  bcast_S8x128x1x1024_S8x128x64x1024_0_1_2_3 : S8x128x1x1024.BroadcastsInDim S8x128x64x1024 (![0, 1, 2, 3] : Fin 4 → Fin S8x128x64x1024.rank)
  bcast_S8x1x64x1024_S8x128x64x1024_0_1_2_3 : S8x1x64x1024.BroadcastsInDim S8x128x64x1024 (![0, 1, 2, 3] : Fin 4 → Fin S8x128x64x1024.rank)
  bcast_S1024_S1x1x1x1024_3 : S1024.BroadcastsInDim S1x1x1x1024 (![3] : Fin 1 → Fin S1x1x1x1024.rank)
  bcast_S1x1x1x1024_S8x128x64x1024_0_1_2_3 : S1x1x1x1024.BroadcastsInDim S8x128x64x1024 (![0, 1, 2, 3] : Fin 4 → Fin S8x128x64x1024.rank)
  bcast_S_S8x128x64x1024 : S_.BroadcastsInDim S8x128x64x1024 (![] : Fin 0 → Fin S8x128x64x1024.rank)
  dot_S8x128x512_S512x1024_S8x128x1024_2_0_01_1_n_n_wf : DotDims.WF S8x128x512 S512x1024 S8x128x1024 [2] [0] [0, 1] [1] [] []
  dot_S8x64x512_S512x1024_S8x64x1024_2_0_01_1_n_n_wf : DotDims.WF S8x64x512 S512x1024 S8x64x1024 [2] [0] [0, 1] [1] [] []
  dot_S8x128x64x1024_S1024x1024_S8x128x64x1024_3_0_012_1_n_n_wf : DotDims.WF S8x128x64x1024 S1024x1024 S8x128x64x1024 [3] [0] [0, 1, 2] [1] [] []

variable [Facts₀]

def dot_S8x128x512_S512x1024_S8x128x1024_2_0_01_1_n_n : DotDims S8x128x512 S512x1024 S8x128x1024 where
  lhsContracting := [2]
  rhsContracting := [0]
  lhsNonContracting := [0, 1]
  rhsNonContracting := [1]
  lhsBatch := []
  rhsBatch := []
  wf := dot_S8x128x512_S512x1024_S8x128x1024_2_0_01_1_n_n_wf
def dot_S8x64x512_S512x1024_S8x64x1024_2_0_01_1_n_n : DotDims S8x64x512 S512x1024 S8x64x1024 where
  lhsContracting := [2]
  rhsContracting := [0]
  lhsNonContracting := [0, 1]
  rhsNonContracting := [1]
  lhsBatch := []
  rhsBatch := []
  wf := dot_S8x64x512_S512x1024_S8x64x1024_2_0_01_1_n_n_wf
def dot_S8x128x64x1024_S1024x1024_S8x128x64x1024_3_0_012_1_n_n : DotDims S8x128x64x1024 S1024x1024 S8x128x64x1024 where
  lhsContracting := [3]
  rhsContracting := [0]
  lhsNonContracting := [0, 1, 2]
  rhsNonContracting := [1]
  lhsBatch := []
  rhsBatch := []
  wf := dot_S8x128x64x1024_S1024x1024_S8x128x64x1024_3_0_012_1_n_n_wf

class Facts : Prop extends Facts₀ where

variable [Facts]
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibRank3Layout.lean ====
/-
  Layout operations on arrays of rank two and three, read at an entry given by its coordinates.

  A shape cast keeps the row-major position of every element, so
    * inserting a unit axis in the middle, `[a, b] → [a, 1, b]`, reads `(i, 0, j)` at `(i, j)`;
    * splitting the leading axis, `[a·b, c] → [a, b, c]`, reads `(i, j, k)` at row `i·b + j`, column `k`, and merging the
      two leading axes, `[a, b, c] → [a·b, c]`, is its inverse.
  A broadcast along unit axes repeats the operand: `[a, 1, c]`, `[1, b, c]` and `[1, 1, c]` broadcast to `[a, b, c]` read
  the operand at coordinate `0` on each unit axis.
-/
import Idealize.ShloMosaic.Lib.Pipeline.Value
import Idealize.ShloMosaic.Lib.ValueIdx

noncomputable section

namespace Cert.Lib

open Idealize.ShloMosaic Idealize.ShloMosaic.ValueIdx

variable {α : Type}

/-- Row `i·b + j` of an array whose `n = a·b` rows are `a` groups of `b`. -/
abbrev mergeIdx {n a b : ℕ} (hn : a * b = n) (i : Fin a) (j : Fin b) : Fin n :=
  ⟨i.val * b + j.val, by
    have hi := i.isLt
    have hj := j.isLt
    have h1 : (i.val + 1) * b ≤ a * b := Nat.mul_le_mul_right b hi
    rw [Nat.add_mul, Nat.one_mul] at h1
    omega⟩

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[n, c]` array with `n = a·b` cast to `[a, b, c]` reads, at `(i, j, k)`, the operand at row `i·b + j`, column `k`. -/
theorem shapeCast_nc_abc_apply {n a b c : ℕ} (hn : a * b = n) (x : (⟨2, ![n, c]⟩ : Shape).Idx → α)
    (h : (⟨2, ![n, c]⟩ : Shape).ShapeCasts ⟨3, ![a, b, c]⟩) (i : Fin a) (j : Fin b) (k : Fin c) :
    shapeCast ⟨3, ![a, b, c]⟩ x h (ix3 i j k) = x (ix2 (mergeIdx hn i j) k) :=
  shapeCast_apply x h _ _ (by
    rw [Shape.rowMajor_val_three, Shape.rowMajor_val_two]
    rfl)

/-- An `[a, b, c]` array cast to `[n, c]` with `n = a·b` reads, at row `i·b + j`, column `k`, the operand at `(i, j, k)`. -/
theorem shapeCast_abc_nc_apply {n a b c : ℕ} (hn : a * b = n) (x : (⟨3, ![a, b, c]⟩ : Shape).Idx → α)
    (h : (⟨3, ![a, b, c]⟩ : Shape).ShapeCasts ⟨2, ![n, c]⟩) (i : Fin a) (j : Fin b) (k : Fin c) :
    shapeCast ⟨2, ![n, c]⟩ x h (ix2 (mergeIdx hn i j) k) = x (ix3 i j k) :=
  shapeCast_apply x h _ _ (by
    rw [Shape.rowMajor_val_three, Shape.rowMajor_val_two]
    rfl)

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ =>
    show 0 = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ =>
    show 0 = if (1 : ℕ) = 1 then 0 else i.val
    rw [if_pos rfl]
  | ⟨1, _⟩ =>
    show 0 = if (1 : ℕ) = 1 then 0 else j.val
    rw [if_pos rfl]
  | ⟨2, _⟩ =>
    show k.val = if c = 1 then 0 else k.val
    split
    · have := k.isLt; omega
    · rfl

end Cert.Lib

end
-- ==== Proof.Spec.lean ====
/-
  The joint network as one function of its six arrays, entry by entry, over the extended reals.

  Inputs: source encodings `src[b, t, f]` (8 × 128 × 512), target encodings `tgt[b, s, f]` (8 × 64 × 512), a first
  layer `W1` (1024 × 1024) with bias `b1`, and a second layer `W2` (1024 × 1024) with bias `b2`. The first layer acts on
  the concatenation of a source row and a target row, so its upper 512 rows multiply the source row and its lower 512
  rows the target row:

    hidden[b, t, s, h] = max( (Σ_f src[b, t, f] · W1[f, h]  +  Σ_f tgt[b, s, f] · W1[512 + f, h])  +  b1[h] ,  0 )
    joint[b, t, s, v]  = ( Σ_h hidden[b, t, s, h] · W2[h, v] )  +  b2[v].

  Every operation is the exact one on the extended reals, where sums of finitely many terms may be taken in any order
  but a product does not distribute over a sum at the infinities; the additions are therefore grouped exactly as written.
-/
import Idealize.ShloMosaic.PureOps.Ideal
import Idealize.ShloMosaic.Lib.ValueIdx

noncomputable section

open scoped BigOperators

namespace Cert.Joint

open Idealize.ShloMosaic Idealize.ShloMosaic.ValueIdx

/-- Row `f` of the first layer, among the 512 upper rows: those that multiply a source row. -/
abbrev upper (f : Fin 512) : Fin 1024 := ⟨f.val, by have := f.isLt; omega⟩

/-- Row `512 + f` of the first layer, among the 512 lower rows: those that multiply a target row. -/
abbrev lower (f : Fin 512) : Fin 1024 := ⟨512 + f.val, by have := f.isLt; omega⟩

/-- The zero the rectifier compares with, kept as the literal both programs print. -/
abbrev zero : EReal := Ideal.ofBits .f32 0x00000000#32

/-- Hidden unit `h` for batch `b`, source step `t`, target step `s`: the source row's projection plus the target row's
    projection, plus the bias, rectified. -/
def hidden (src : FVec Ideal ⟨3, ![8, 128, 512]⟩ .f32) (tgt : FVec Ideal ⟨3, ![8, 64, 512]⟩ .f32)
    (W1 : FVec Ideal ⟨2, ![1024, 1024]⟩ .f32) (b1 : FVec Ideal ⟨1, ![1024]⟩ .f32)
    (b : Fin 8) (t : Fin 128) (s : Fin 64) (h : Fin 1024) : EReal :=
  max (((∑ f : Fin 512, src (ix3 b t f) * W1 (ix2 (upper f) h))
        + (∑ f : Fin 512, tgt (ix3 b s f) * W1 (ix2 (lower f) h))) + b1 (ix1 h)) zero

/-- Output `v` for batch `b`, source step `t`, target step `s`: the hidden units through the second layer, plus its bias. -/
def out (src : FVec Ideal ⟨3, ![8, 128, 512]⟩ .f32) (tgt : FVec Ideal ⟨3, ![8, 64, 512]⟩ .f32)
    (W1 : FVec Ideal ⟨2, ![1024, 1024]⟩ .f32) (b1 : FVec Ideal ⟨1, ![1024]⟩ .f32)
    (W2 : FVec Ideal ⟨2, ![1024, 1024]⟩ .f32) (b2 : FVec Ideal ⟨1, ![1024]⟩ .f32)
    (b : Fin 8) (t : Fin 128) (s : Fin 64) (v : Fin 1024) : EReal :=
  (∑ h : Fin 1024, hidden src tgt W1 b1 b t s h * W2 (ix2 h v)) + b2 (ix1 v)

/-- The whole result array: entry `(b, t, s, v)` is `out … b t s v`. -/
def joint (src : FVec Ideal ⟨3, ![8, 128, 512]⟩ .f32) (tgt : FVec Ideal ⟨3, ![8, 64, 512]⟩ .f32)
    (W1 : FVec Ideal ⟨2, ![1024, 1024]⟩ .f32) (b1 : FVec Ideal ⟨1, ![1024]⟩ .f32)
    (W2 : FVec Ideal ⟨2, ![1024, 1024]⟩ .f32) (b2 : FVec Ideal ⟨1, ![1024]⟩ .f32) :
    FVec Ideal ⟨4, ![8, 128, 64, 1024]⟩ .f32 :=
  fun i => out src tgt W1 b1 W2 b2 (i 0) (i 1) (i 2) (i 3)

/-- The result array at an index given by its four coordinates. -/
theorem joint_ix4 (src : FVec Ideal ⟨3, ![8, 128, 512]⟩ .f32) (tgt : FVec Ideal ⟨3, ![8, 64, 512]⟩ .f32)
    (W1 : FVec Ideal ⟨2, ![1024, 1024]⟩ .f32) (b1 : FVec Ideal ⟨1, ![1024]⟩ .f32)
    (W2 : FVec Ideal ⟨2, ![1024, 1024]⟩ .f32) (b2 : FVec Ideal ⟨1, ![1024]⟩ .f32)
    (b : Fin 8) (t : Fin 128) (s : Fin 64) (v : Fin 1024) :
    joint src tgt W1 b1 W2 b2 (ix4 b t s v) = out src tgt W1 b1 W2 b2 b t s v := rfl

end Cert.Joint

end
-- ==== Proof.Payload.lean ====
/-
  One block of the kernel's arithmetic, read at an entry.

  From a block of 16 source rows `S[0, p, f]`, the 64 target rows `T[0, s, f]` of the same batch, the two halves `A`, `B`
  (512 × 1024 each) of the first layer, the second layer `C` (1024 × 1024) and the two bias rows `u[0, h]`, `w[0, v]`, the
  body forms the 16 × 1024 and 64 × 1024 products `S·A` and `T·B`, adds them for every pair `(p, s)` together with the
  bias row, rectifies, lays the 16 × 64 pairs out as 1024 rows, multiplies by `C`, splits the rows into pairs again and
  adds the second bias row. Entry `(p, s, v)` of the result is therefore

    ( Σ_h max( (Σ_f S[0,p,f]·A[f,h] + Σ_f T[0,s,f]·B[f,h]) + u[0,h] , 0 ) · C[h,v] ) + w[0,v] :

  pair `(p, s)` is row `64·p + s` of the 1024-row layout, so merging and splitting cancel. The roundings to a narrower
  float format on the way into each product are the identity on the extended reals.
-/
import proofs.«127381_j77859167141918_1_alg».proof.Proof.Gen.KernelIdeal.Skeleton
import proofs.«127381_j77859167141918_1_alg».proof.Proof.LibMatmulPlain
import proofs.«127381_j77859167141918_1_alg».proof.Proof.LibRank3Layout
import proofs.«127381_j77859167141918_1_alg».proof.Proof.Spec
import Idealize.ShloMosaic.Lib.ValueLayout
import Idealize.ShloMosaic.PureOps.Ideal.Laws

noncomputable section

open scoped BigOperators

namespace Cert.Joint

open Cert.KernelIdeal Cert.KernelIdeal.Gen Idealize.ShloMosaic Idealize.ShloMosaic.ValueIdx

/-- The three products contract the left operand's columns with the right operand's rows. -/
theorem dims_src : dot_S16x512_S512x1024_S16x1024_1_0_0_1_n_n = DotDims.plain 16 512 1024 := rfl
theorem dims_tgt : dot_S64x512_S512x1024_S64x1024_1_0_0_1_n_n = DotDims.plain 64 512 1024 := rfl
theorem dims_out : dot_S1024x1024_S1024x1024_S1024x1024_1_0_0_1_n_n = DotDims.plain 1024 1024 1024 := rfl

/-- Entry `(p, s, v)` of the block the body computes from its seven loaded blocks. -/
theorem payload_apply (S : Vec Ideal S1x16x512 .f32) (T : Vec Ideal S1x64x512 .f32) (A : Vec Ideal S512x1024 .f32)
    (B : Vec Ideal S512x1024 .f32) (C : Vec Ideal S1024x1024 .f32) (u : Vec Ideal S1x1024 .f32) (w : Vec Ideal S1x1024 .f32)
    (p : Fin 16) (s : Fin 64) (v : Fin 1024) :
    k0_pay2 (F := Ideal) S T A B C u w (ix3 p s v)
      = (∑ h : Fin 1024, max (((∑ f : Fin 512, S (ix3 (0 : Fin 1) p f) * A (ix2 f h))
            + (∑ f : Fin 512, T (ix3 (0 : Fin 1) s f) * B (ix2 f h))) + u (ix2 (0 : Fin 1) h)) zero * C (ix2 h v))
          + w (ix2 (0 : Fin 1) v) := by
  unfold k0_pay2
  simp only [addf_apply, maximumf_apply, truncf_apply, broadcast_apply, shapeCast_self, dims_src, dims_tgt, dims_out,
    matmul, Cert.Lib.matmul_plain_zero_apply,
    Cert.Lib.shapeCast_nc_abc_apply (n := 1024) (a := 16) (b := 64) rfl,
    Cert.Lib.shapeCast_abc_nc_apply (n := 1024) (a := 16) (b := 64) rfl,
    Cert.Lib.shapeCast_ab_a1b_apply, shapeCast_ab_1ab_apply, shapeCast_1ab_ab_apply,
    Cert.Lib.broadcastTo_a1c_abc_apply, Cert.Lib.broadcastTo_1bc_abc_apply, Cert.Lib.broadcastTo_11c_abc_apply]
  rfl

/-- When the loaded blocks hold, of batch `b`, the source row of step `t` at row `p` and every target row, and the whole
    of the two layers and of the biases, entry `(p, s, v)` of the block is the joint network's output `v` for
    `(b, t, s)`. Only the entries that output depends on are asked of the blocks. -/
theorem block_entry (S : Vec Ideal S1x16x512 .f32) (T : Vec Ideal S1x64x512 .f32) (A : Vec Ideal S512x1024 .f32)
    (B : Vec Ideal S512x1024 .f32) (C : Vec Ideal S1024x1024 .f32) (u : Vec Ideal S1x1024 .f32) (w : Vec Ideal S1x1024 .f32)
    (src : FVec Ideal ⟨3, ![8, 128, 512]⟩ .f32) (tgt : FVec Ideal ⟨3, ![8, 64, 512]⟩ .f32)
    (W1 : FVec Ideal ⟨2, ![1024, 1024]⟩ .f32) (b1 : FVec Ideal ⟨1, ![1024]⟩ .f32)
    (W2 : FVec Ideal ⟨2, ![1024, 1024]⟩ .f32) (b2 : FVec Ideal ⟨1, ![1024]⟩ .f32)
    (b : Fin 8) (t : Fin 128) (p : Fin 16) (s : Fin 64) (v : Fin 1024)
    (hS : ∀ f : Fin 512, S (ix3 (0 : Fin 1) p f) = src (ix3 b t f))
    (hT : ∀ f : Fin 512, T (ix3 (0 : Fin 1) s f) = tgt (ix3 b s f))
    (hA : ∀ (f : Fin 512) (h : Fin 1024), A (ix2 f h) = W1 (ix2 (upper f) h))
    (hB : ∀ (f : Fin 512) (h : Fin 1024), B (ix2 f h) = W1 (ix2 (lower f) h))
    (hC : ∀ h : Fin 1024, C (ix2 h v) = W2 (ix2 h v))
    (hu : ∀ h : Fin 1024, u (ix2 (0 : Fin 1) h) = b1 (ix1 h))
    (hw : w (ix2 (0 : Fin 1) v) = b2 (ix1 v)) :
    k0_pay2 (F := Ideal) S T A B C u w (ix3 p s v) = out src tgt W1 b1 W2 b2 b t s v := by
  rw [payload_apply]
  unfold out hidden
  simp only [hS, hT, hA, hB, hC, hu, hw]

end Cert.Joint

end
-- ==== Proof.Blocks.lean ====
/-
  From the blocks to the whole array: what the kernel's run leaves in its result.

  The grid has 8 × 8 points `(b, q)`. At that point the kernel is handed rows `16·q … 16·q + 15` of batch `b` of the
  source encodings, all 64 target rows of batch `b`, the upper and the lower 512 rows of the first layer (cut out of
  `W1` before the launch), the second layer, and the two biases as single rows; it writes back the block of the result
  at batch `b`, source steps `16·q … 16·q + 15`. Entry `(0, p, s, v)` of what it writes is entry `(p, s, v)` of the
  body's block, which is the joint network's output `v` for `(b, 16·q + p, s)`: the written block is that block of
  `joint` of the six arguments. The 64 blocks tile the result array (source step `r` lies in the block of point
  `(b, r / 16)`), so after the run the array is `joint` of the arguments.
-/
import proofs.«127381_j77859167141918_1_alg».proof.Proof.Gen.KernelIdeal.Value
import proofs.«127381_j77859167141918_1_alg».proof.Proof.Payload
import Idealize.ShloMosaic.Lib.Pipeline.Value
import Idealize.ShloMosaic.Lib.StableHlo.Run
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Joint

open Cert.KernelIdeal Cert.KernelIdeal.Gen Cert.KernelIdeal.Value

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The arrays the launch finds, where they were computed before it -/

/-- The third operand is the upper 512 rows of `W1`. -/
theorem upper_half (c : Dev nD) :
    (V m c main_v0 : S512x1024.Idx → EReal)
      = extractStridedSlice S512x1024 ![0, 0] (m ((c : Thread nD τ).loc main_arg2)) slices_S1024x1024_S512x1024_0_0 := by
  dsimp only [Gen.V, Gen.hostOps0]; after_results <;> rfl

/-- The fourth operand is the lower 512 rows of `W1`. -/
theorem lower_half (c : Dev nD) :
    (V m c main_v1 : S512x1024.Idx → EReal)
      = extractStridedSlice S512x1024 ![512, 0] (m ((c : Thread nD τ).loc main_arg2)) slices_S1024x1024_S512x1024_512_0 := by
  dsimp only [Gen.V, Gen.hostOps0]; after_results <;> rfl

/-- The sixth operand is `b1` as one row. -/
theorem bias1_row (c : Dev nD) :
    (V m c main_v2 : S1x1024.Idx → EReal)
      = shapeCast S1x1024 (m ((c : Thread nD τ).loc main_arg3)) shapeCasts_S1024_S1x1024 := by
  dsimp only [Gen.V, Gen.hostOps0]; after_results <;> rfl

/-- The seventh operand is `b2` as one row. -/
theorem bias2_row (c : Dev nD) :
    (V m c main_v3 : S1x1024.Idx → EReal)
      = shapeCast S1x1024 (m ((c : Thread nD τ).loc main_arg5)) shapeCasts_S1024_S1x1024 := by
  dsimp only [Gen.V, Gen.hostOps0]; after_results <;> rfl

/-! ## The index maps over the grid -/

/-- At every grid point: the source block moves with the result block on the batch and step axes, the target block on
    the batch axis only, every other operand is one whole block; the result's block indices are `(b, q, 0, 0)` with
    `b, q ≤ 7`. Decided over the 64 points. -/
theorem idx_facts : ∀ t : Fin cfg0.N,
    win0_0.index t (0 : Fin 3) = win0_7.index t (0 : Fin 4) ∧ win0_0.index t (1 : Fin 3) = win0_7.index t (1 : Fin 4)
    ∧ win0_0.index t (2 : Fin 3) = 0
    ∧ win0_1.index t (0 : Fin 3) = win0_7.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 4) ≤ 7 ∧ win0_7.index t (1 : Fin 4) ≤ 7
    ∧ win0_7.index t (2 : Fin 4) = 0 ∧ win0_7.index t (3 : Fin 4) = 0 :=
  (by decide +kernel : ∀ t : Fin grid0.N, _)

/-- Every pair `(b, q)` is some point's result block. -/
theorem idx_onto : ∀ (q0 : Fin 8) (q1 : Fin 8), ∃ t : Fin cfg0.N, win0_7.index t = ![q0.val, q1.val, 0, 0] :=
  (by decide +kernel : ∀ (q0 : Fin 8) (q1 : Fin 8), ∃ t : Fin grid0.N, win0_7.index t = ![q0.val, q1.val, 0, 0])

/-! ## Each operand's block, read at an entry -/

/-- Row `p` of the source block at a point is source step `16·q + p` of batch `b`. -/
theorem src_block (c : Dev nD) (t : Fin cfg0.N) (p : Fin 16) (f : Fin 512) (b : Fin 8) (r : Fin 128)
    (hb : b.val = win0_7.index t (0 : Fin 4)) (hr : r.val = win0_7.index t (1 : Fin 4) * 16 + p.val) :
    (iblk m c 0 t : Vec Ideal S1x16x512 .f32) (ix3 (0 : Fin 1) p f)
      = (m ((c : Thread nD τ).loc main_arg0) : S8x128x512.Idx → EReal) (ix3 b r f) := by
  obtain ⟨e0, e1, e2, -⟩ := idx_facts t
  unfold iblk
  rw [View.read_apply]
  show V m c main_arg0 (((cfg0.win 0).blk t).view.emb (ix3 (0 : Fin 1) p f)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 16 + 1 * p.val = r.val; omega
  | ⟨2, _⟩ => show win0_0.index t (2 : Fin 3) * 512 + 1 * f.val = f.val; omega

/-- Row `s` of the target block at a point is target step `s` of batch `b`. -/
theorem tgt_block (c : Dev nD) (t : Fin cfg0.N) (s : Fin 64) (f : Fin 512) (b : Fin 8)
    (hb : b.val = win0_7.index t (0 : Fin 4)) :
    (iblk m c 1 t : Vec Ideal S1x64x512 .f32) (ix3 (0 : Fin 1) s f)
      = (m ((c : Thread nD τ).loc main_arg1) : S8x64x512.Idx → EReal) (ix3 b s f) := by
  obtain ⟨-, -, -, e0, e1, e2, -⟩ := idx_facts t
  unfold iblk
  rw [View.read_apply]
  show V m c main_arg1 (((cfg0.win 1).blk t).view.emb (ix3 (0 : Fin 1) s f)) = _
  rw [V_main_arg1]
  refine congrArg _ (funext fun a => Fin.ext ?_)
  match a with
  | ⟨0, _⟩ => show win0_1.index t (0 : Fin 3) * 1 + 1 * 0 = b.val; omega
  | ⟨1, _⟩ => show win0_1.index t (1 : Fin 3) * 64 + 1 * s.val = s.val; omega
  | ⟨2, _⟩ => show win0_1.index t (2 : Fin 3) * 512 + 1 * f.val = f.val; omega

/-- The third operand's one block is rows `0 … 511` of `W1`. -/
theorem upper_block (c : Dev nD) (t : Fin cfg0.N) (f : Fin 512) (h : Fin 1024) :
    (iblk m c 2 t : Vec Ideal S512x1024 .f32) (ix2 f h)
      = (m ((c : Thread nD τ).loc main_arg2) : S1024x1024.Idx → EReal) (ix2 (upper f) h) := by
  obtain ⟨-, -, -, -, -, -, e0, e1, -⟩ := idx_facts t
  unfold iblk
  rw [View.read_apply]
  show V m c main_v0 (((cfg0.win 2).blk t).view.emb (ix2 f h)) = _
  rw [upper_half]
  refine extractStridedSlice_apply ![0, 0] _ slices_S1024x1024_S512x1024_0_0 _ (ix2 (upper f) h) fun a => ?_
  match a with
  | ⟨0, _⟩ => show f.val = 0 + (win0_2.index t (0 : Fin 2) * 512 + 1 * f.val); omega
  | ⟨1, _⟩ => show h.val = 0 + (win0_2.index t (1 : Fin 2) * 1024 + 1 * h.val); omega

/-- The fourth operand's one block is rows `512 … 1023` of `W1`. -/
theorem lower_block (c : Dev nD) (t : Fin cfg0.N) (f : Fin 512) (h : Fin 1024) :
    (iblk m c 3 t : Vec Ideal S512x1024 .f32) (ix2 f h)
      = (m ((c : Thread nD τ).loc main_arg2) : S1024x1024.Idx → EReal) (ix2 (lower f) h) := by
  obtain ⟨-, -, -, -, -, -, -, -, e0, e1, -⟩ := idx_facts t
  unfold iblk
  rw [View.read_apply]
  show V m c main_v1 (((cfg0.win 3).blk t).view.emb (ix2 f h)) = _
  rw [lower_half]
  refine extractStridedSlice_apply ![512, 0] _ slices_S1024x1024_S512x1024_512_0 _ (ix2 (lower f) h) fun a => ?_
  match a with
  | ⟨0, _⟩ => show 512 + f.val = 512 + (win0_3.index t (0 : Fin 2) * 512 + 1 * f.val); omega
  | ⟨1, _⟩ => show h.val = 0 + (win0_3.index t (1 : Fin 2) * 1024 + 1 * h.val); omega

/-- The fifth operand's one block is `W2`. -/
theorem second_block (c : Dev nD) (t : Fin cfg0.N) (h : Fin 1024) (v : Fin 1024) :
    (iblk m c 4 t : Vec Ideal S1024x1024 .f32) (ix2 h v)
      = (m ((c : Thread nD τ).loc main_arg4) : S1024x1024.Idx → EReal) (ix2 h v) := by
  obtain ⟨-, -, -, -, -, -, -, -, -, -, e0, e1, -⟩ := idx_facts t
  unfold iblk
  rw [View.read_apply]
  show V m c main_arg4 (((cfg0.win 4).blk t).view.emb (ix2 h v)) = _
  rw [V_main_arg4]
  refine congrArg _ (funext fun a => Fin.ext ?_)
  match a with
  | ⟨0, _⟩ => show win0_4.index t (0 : Fin 2) * 1024 + 1 * h.val = h.val; omega
  | ⟨1, _⟩ => show win0_4.index t (1 : Fin 2) * 1024 + 1 * v.val = v.val; omega

/-- The sixth operand's one block is `b1` as a row. -/
theorem bias1_block (c : Dev nD) (t : Fin cfg0.N) (h : Fin 1024) :
    (iblk m c 5 t : Vec Ideal S1x1024 .f32) (ix2 (0 : Fin 1) h)
      = (m ((c : Thread nD τ).loc main_arg3) : S1024.Idx → EReal) (ix1 h) := by
  obtain ⟨-, -, -, -, -, -, -, -, -, -, -, -, e0, e1, -⟩ := idx_facts t
  unfold iblk
  rw [View.read_apply]
  show V m c main_v2 (((cfg0.win 5).blk t).view.emb (ix2 (0 : Fin 1) h)) = _
  rw [bias1_row]
  refine shapeCast_apply _ shapeCasts_S1024_S1x1024 _ (ix1 h) ?_
  rw [Shape.rowMajor_val_one, Shape.rowMajor_val_two]
  show h.val = (win0_5.index t (0 : Fin 2) * 1 + 1 * 0) * 1024 + (win0_5.index t (1 : Fin 2) * 1024 + 1 * h.val)
  omega

/-- The seventh operand's one block is `b2` as a row. -/
theorem bias2_block (c : Dev nD) (t : Fin cfg0.N) (v : Fin 1024) :
    (iblk m c 6 t : Vec Ideal S1x1024 .f32) (ix2 (0 : Fin 1) v)
      = (m ((c : Thread nD τ).loc main_arg5) : S1024.Idx → EReal) (ix1 v) := by
  obtain ⟨-, -, -, -, -, -, -, -, -, -, -, -, -, -, e0, e1, -⟩ := idx_facts t
  unfold iblk
  rw [View.read_apply]
  show V m c main_v3 (((cfg0.win 6).blk t).view.emb (ix2 (0 : Fin 1) v)) = _
  rw [bias2_row]
  refine shapeCast_apply _ shapeCasts_S1024_S1x1024 _ (ix1 v) ?_
  rw [Shape.rowMajor_val_one, Shape.rowMajor_val_two]
  show v.val = (win0_6.index t (0 : Fin 2) * 1 + 1 * 0) * 1024 + (win0_6.index t (1 : Fin 2) * 1024 + 1 * v.val)
  omega

/-! ## What a point writes back, the cover, the array after the run -/

/-- The joint network's function of the six argument arrays as launched. -/
abbrev result (c : Dev nD) : S8x128x64x1024.Idx → EReal :=
  joint (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back is block `t` of `result`. -/
theorem flushed_eq (c : Dev nD) (t : Fin cfg0.N) :
    (dats m 0 c).flushed 7 t = ((cfg0.win 7).blk t).view.read (Elt Ideal) (result m c) := by
  rw [flushed7]
  unfold out0_7
  simp only [View.ld_unit_zero (S := S1x16x512) hz3, View.ld_unit_zero (S := S1x64x512) hz3,
    View.ld_unit_zero (S := S512x1024) hz2, View.ld_unit_zero (S := S1024x1024) hz2, View.ld_unit_zero (S := S1x1024) hz2]
  obtain ⟨-, -, -, -, -, -, -, -, -, -, -, -, -, -, -, -, l0, l1, z2, z3⟩ := idx_facts t
  funext y
  obtain ⟨u, p, s, v, rfl⟩ : ∃ (u : Fin 1) (p : Fin 16) (s : Fin 64) (v : Fin 1024), y = ix4 u p s v :=
    ⟨y 0, y 1, y 2, y 3, eq_ix4 y⟩
  show (View.canon [⟨r0_5, k0_pay1 (k0_pay2 (iblk m c 0 t) (iblk m c 1 t) (iblk m c 2 t) (iblk m c 3 t) (iblk m c 4 t)
      (iblk m c 5 t) (iblk m c 6 t))⟩] : Vec Ideal S1x16x64x1024 .f32) (ix4 u p s v)
    = result m c (((cfg0.win 7).blk t).view.emb (ix4 u p s v))
  have hemb : ((cfg0.win 7).blk t).view.emb (ix4 u p s v)
      = (ix4 (⟨win0_7.index t (0 : Fin 4), by omega⟩ : Fin 8) (⟨win0_7.index t (1 : Fin 4) * 16 + p.val, by have := p.isLt; omega⟩ : Fin 128) s v :
          S8x128x64x1024.Idx) := by
    funext a; apply Fin.ext
    have hu : u.val = 0 := by omega
    match a with
    | ⟨0, _⟩ => show win0_7.index t (0 : Fin 4) * 1 + 1 * u.val = win0_7.index t (0 : Fin 4); omega
    | ⟨1, _⟩ => show win0_7.index t (1 : Fin 4) * 16 + 1 * p.val = win0_7.index t (1 : Fin 4) * 16 + p.val; omega
    | ⟨2, _⟩ => show win0_7.index t (2 : Fin 4) * 64 + 1 * s.val = s.val; omega
    | ⟨3, _⟩ => show win0_7.index t (3 : Fin 4) * 1024 + 1 * v.val = v.val; omega
  rw [hemb, canon7_eq]
  show k0_pay2 (iblk m c 0 t) (iblk m c 1 t) (iblk m c 2 t) (iblk m c 3 t) (iblk m c 4 t) (iblk m c 5 t) (iblk m c 6 t)
      (ix3 p s v) = _
  exact block_entry (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨win0_7.index t (0 : Fin 4), by omega⟩ ⟨win0_7.index t (1 : Fin 4) * 16 + p.val, by have := p.isLt; omega⟩ p s v
    (fun f => src_block m c t p f _ _ rfl rfl) (fun f => tgt_block m c t s f _ rfl)
    (fun f h => upper_block m c t f h) (fun f h => lower_block m c t f h) (fun h => second_block m c t h v)
    (fun h => bias1_block m c t h) (bias2_block m c t v)

/-- An index of the result array is in point `t`'s block iff each coordinate is in the block's range on its axis. -/
theorem mem_blk (t : Fin cfg0.N) (i : S8x128x64x1024.Idx) :
    i ∈ ((cfg0.win 7).blk t).view.set ↔ ∀ a : Fin 4, win0_7.index t a * S1x16x64x1024.size a ≤ (i a).val
      ∧ (i a).val < win0_7.index t a * S1x16x64x1024.size a + S1x16x64x1024.size a := by
  show i ∈ ((View.whole main_v4).slice (win0_7.rect t)).set ↔ _
  rw [View.set_slice_whole, Rect.mem_set_unit]
  exact Iff.rfl

/-- Every index of the result array lies in some point's block: batch `b`, source step `r` in that of `(b, r / 16)`. -/
theorem covered (i : S8x128x64x1024.Idx) :
    ∃ t : Fin cfg0.N, (cfg0.win 7).flush t = true ∧ i ∈ ((cfg0.win 7).blk t).view.set := by
  have hi0 : (i 0).val < 8 := (i 0).isLt
  have hi1 : (i 1).val < 128 := (i 1).isLt
  have hi2 : (i 2).val < 64 := (i 2).isLt
  have hi3 : (i 3).val < 1024 := (i 3).isLt
  obtain ⟨t, ht⟩ := idx_onto ⟨(i 0).val, hi0⟩ ⟨(i 1).val / 16, by omega⟩
  have q0 : win0_7.index t (0 : Fin 4) = (i 0).val := congrFun ht 0
  have q1 : win0_7.index t (1 : Fin 4) = (i 1).val / 16 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 64 ≤ (i 2).val ∧ (i 2).val < win0_7.index t (2 : Fin 4) * 64 + 64; omega
  | ⟨3, _⟩ => show win0_7.index t (3 : Fin 4) * 1024 ≤ (i 3).val ∧ (i 3).val < win0_7.index t (3 : Fin 4) * 1024 + 1024; omega

/-- The result array after the run is `result`. -/
theorem final (c : Dev nD) : (dats m 0 c).arrAt 7 cfg0.N = result m c :=
  (dats m 0 c).arrAt_eq_of_cover 7 (result m c) (fun t _ => flushed_eq m c t) covered

/-- The run, read: the result array ends at the joint network's function of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Joint

end
-- ==== Proof.RefIsJoint.lean ====
/-
  The reference computes the joint network's function.

  Read one operation at a time, entry `(b, t, s, v)` of the reference's result is the sum over `h` of the rectified
  hidden unit times `W2[h, v]`, plus `b2[v]`; the hidden unit adds the entry `(b, t, h)` of `src · W1[0:512]`, broadcast
  along the target step, to the entry `(b, s, h)` of `tgt · W1[512:1024]`, broadcast along the source step, then `b1[h]`.
  What is left to check is which element of each argument every composed index names: the broadcasts drop the
  coordinate of the axis they create, the slices shift the row by `0` and by `512`.
-/
import proofs.«127381_j77859167141918_1_alg».proof.Proof.Gen.ReferenceIdeal.Read
import proofs.«127381_j77859167141918_1_alg».proof.Proof.Spec

noncomputable section

open scoped BigOperators

namespace Cert.Joint

open Cert.ReferenceIdeal Cert.ReferenceIdeal.Read Idealize.ShloMosaic Idealize.ShloMosaic.ValueIdx

/-- The reference's result, as a function of its six arguments, is `joint`. -/
theorem reference_eq (x0 : FVec Ideal ⟨3, ![8, 128, 512]⟩ .f32) (x1 : FVec Ideal ⟨3, ![8, 64, 512]⟩ .f32)
    (x2 : FVec Ideal ⟨2, ![1024, 1024]⟩ .f32) (x3 : FVec Ideal ⟨1, ![1024]⟩ .f32)
    (x4 : FVec Ideal ⟨2, ![1024, 1024]⟩ .f32) (x5 : FVec Ideal ⟨1, ![1024]⟩ .f32) :
    val_main_v16 (F := Ideal) x0 x1 x2 x3 x4 x5 = joint x0 x1 x2 x3 x4 x5 := by
  funext i
  obtain ⟨b, t, s, v, rfl⟩ : ∃ (b : Fin 8) (t : Fin 128) (s : Fin 64) (v : Fin 1024), i = ix4 b t s v :=
    ⟨i 0, i 1, i 2, i 3, eq_ix4 i⟩
  -- the element of each argument that every composed index names
  have e_src : ∀ (h : Fin 1024) (f : Fin 512),
      lidx_main_v2 (idx_main_v4 (idx_main_v6 (lidx_main_v13 (ix4 b t s v) h))) f = ix3 b t f := fun h f =>
    funext fun a => Fin.ext (by match a with | ⟨0, _⟩ => rfl | ⟨1, _⟩ => rfl | ⟨2, _⟩ => rfl)
  have e_upper : ∀ (h : Fin 1024) (f : Fin 512),
      idx_main_v0 (ridx_main_v2 (idx_main_v4 (idx_main_v6 (lidx_main_v13 (ix4 b t s v) h))) f) = ix2 (upper f) h := fun h f =>
    funext fun a => Fin.ext (by match a with | ⟨0, _⟩ => rfl | ⟨1, _⟩ => rfl)
  have e_tgt : ∀ (h : Fin 1024) (f : Fin 512),
      lidx_main_v3 (idx_main_v5 (idx_main_v7 (lidx_main_v13 (ix4 b t s v) h))) f = ix3 b s f := fun h f =>
    funext fun a => Fin.ext (by match a with | ⟨0, _⟩ => rfl | ⟨1, _⟩ => rfl | ⟨2, _⟩ => rfl)
  have e_lower : ∀ (h : Fin 1024) (f : Fin 512),
      idx_main_v1 (ridx_main_v3 (idx_main_v5 (idx_main_v7 (lidx_main_v13 (ix4 b t s v) h))) f) = ix2 (lower f) h := fun h f =>
    funext fun a => Fin.ext (by match a with | ⟨0, _⟩ => rfl | ⟨1, _⟩ => rfl)
  have e_b1 : ∀ h : Fin 1024, idx_main_v9 (idx_main_v10 (lidx_main_v13 (ix4 b t s v) h)) = ix1 h := fun h =>
    funext fun a => Fin.ext (by match a with | ⟨0, _⟩ => rfl)
  have e_w2 : ∀ h : Fin 1024, ridx_main_v13 (ix4 b t s v) h = ix2 h v := fun h =>
    funext fun a => Fin.ext (by match a with | ⟨0, _⟩ => rfl | ⟨1, _⟩ => rfl)
  have e_b2 : idx_main_v14 (idx_main_v15 (ix4 b t s v)) = ix1 v :=
    funext fun a => Fin.ext (by match a with | ⟨0, _⟩ => rfl)
  rw [joint_ix4]
  simp only [val_main_v16_apply, val_main_v13_apply, val_main_v15_apply, val_main_v14_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_call0_v0_apply, val_main_call0_cst_apply, e_src, e_upper, e_tgt, e_lower, e_b1, e_w2, e_b2]
  rfl

end Cert.Joint

end
-- ==== Proof.lean ====
/-
  The kernel and its reference compute the joint network of a transducer: for batch `b`, source step `t`, target step
  `s` and output `v`,

    out[b, t, s, v] = ( Σ_h max( (Σ_f src[b,t,f]·W1[f,h] + Σ_f tgt[b,s,f]·W1[512+f,h]) + b1[h] , 0 ) · W2[h,v] ) + b2[v]

  (Proof/Spec.lean). The reference forms the two projections as contractions over `f`, broadcasts them against each
  other, rectifies and contracts over `h` (Proof/RefIsJoint.lean). The kernel does the same block by block — 16 source
  steps of one batch at a grid point, the 16 × 64 pairs laid out as 1024 rows for the second product — and its 64 blocks
  tile the result (Proof/Payload.lean, Proof/Blocks.lean). Over the extended reals a change of float format is the
  identity and both programs group the additions alike, so the two results agree entry by entry for all inputs: no
  distributivity or cancellation, hence no finiteness of the inputs, is used. The idealized kernel is the kernel's own
  text read over the extended reals, so there is nothing to preserve. Each program's run terminates without fault and
  leaves its arguments as they were.
-/
import proofs.«127381_j77859167141918_1_alg».proof.Defs
import proofs.«127381_j77859167141918_1_alg».proof.Proof.Gen.Kernel
import proofs.«127381_j77859167141918_1_alg».proof.Proof.Gen.Kernel.Frame
import proofs.«127381_j77859167141918_1_alg».proof.Proof.Gen.KernelIdeal
import proofs.«127381_j77859167141918_1_alg».proof.Proof.Gen.KernelIdeal.Frame
import proofs.«127381_j77859167141918_1_alg».proof.Proof.Gen.KernelIdeal.Value
import proofs.«127381_j77859167141918_1_alg».proof.Proof.Gen.ReferenceIdeal
import proofs.«127381_j77859167141918_1_alg».proof.Proof.Gen.ReferenceIdeal.Run
import proofs.«127381_j77859167141918_1_alg».proof.Proof.Gen.ReferenceIdeal.Read
import proofs.«127381_j77859167141918_1_alg».proof.Proof.Gen.Pre_finite_inputs
import proofs.«127381_j77859167141918_1_alg».proof.Proof.Blocks
import proofs.«127381_j77859167141918_1_alg».proof.Proof.RefIsJoint
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments, the kernel's result array and the reference's both end at the joint
    network's function of those arguments. -/
theorem algebraic : Cert.algebraic_KernelIdeal_ReferenceIdeal := by
  intro m ρ m' ρ' _ hagree
  refine ⟨fun c => Cert.Joint.result m c, Cert.Joint.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v16_eq, Cert.Joint.reference_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
